-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S1024x1024 .f32) (main_arg2 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S512x512 : Shape := ⟨2, ![512, 512]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 16, 2], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S1024x1024.size a
  hwx0_0 : ∀ i : grid0.Coords, EltTy.bits .f32 = 32 ∨ (Rect.block (s := S1024x1024) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S1024x1024.size a
  hwx0_1 : ∀ i : grid0.Coords, EltTy.bits .f32 = 32 ∨ (Rect.block (s := S1024x1024) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S1024x1024.size a
  hwx0_2 : ∀ i : grid0.Coords, EltTy.bits .f32 = 32 ∨ (Rect.block (s := S1024x1024) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x1024.size a
  hwx1_0 : ∀ i : grid1.Coords, EltTy.bits .f32 = 32 ∨ (Rect.block (s := S8192x1024) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S1024x1024.size a
  hwx1_1 : ∀ i : grid1.Coords, EltTy.bits .f32 = 32 ∨ (Rect.block (s := S1024x1024) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S8192x1024.size a
  hwx1_2 : ∀ i : grid1.Coords, EltTy.bits .f32 = 32 ∨ (Rect.block (s := S8192x1024) S512x512.size (cc1_transform_2 i) (hinb1_2 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.KernelPieces.lean ====
/-
  What one grid step of the kernel leaves in its buffers, as values.

  A grid step loads a 512-row block of x (x0), both weight arrays whole (x1, x2) and, at every step, a scratch array that
  holds the gated weights. At a step that opens a run of eight (its second grid coordinate is 0) the body first stores
  tanh(x1) * logistic(x2) into the scratch and then reads it back; at the other steps it reads what the step before left
  there (xs0). In both cases the output block is the product of the block of x with the transpose of the scratch.
  Each statement holds for any float instance: it only says which stored value is read back where.
-/
import proofs.«143479_g2000604538747211_pallasbulk_44_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets, as a constant function. -/
theorem hz : (![0, 0] : Fin 2 → Nat) = fun _ => 0 := funext fun a => by fin_cases a <;> rfl

/-- A step that opens a run leaves the gated weights in the scratch: its one store covers the scratch, and its
    payload is computed from the two weight arrays as loaded. -/
theorem scratch_A (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S1024x1024 .bf16) (harg6 : arg6.IsWhole) (hc0 : cond0_0 i)
    (x0 : Vec F S512x1024 .f32) (x1 : Vec F S1024x1024 .f32) (x2 : Vec F S1024x1024 .f32) :
    sout0_A_0 c i arg2 harg2 arg3 harg3 arg4 harg4 arg5 harg5 arg6 harg6 hc0 x0 x1 x2 = k0_pay1 x1 x2 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz]
  simp only [View.readAt_eq_ld, harg3.read_unread, harg4.read_unread, View.ld_unit_zero (S := S1024x1024) hz]

/-- At such a step the output block is the product of the block of x with the gated weights just stored: the load
    of the scratch after the covering store reads the stored value. -/
theorem out_A (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S1024x1024 .bf16) (harg6 : arg6.IsWhole) (hc0 : cond0_0 i)
    (x0 : Vec F S512x1024 .f32) (x1 : Vec F S1024x1024 .f32) (x2 : Vec F S1024x1024 .f32) :
    out0_A_3 c i arg2 harg2 arg3 harg3 arg4 harg4 arg5 harg5 arg6 harg6 hc0 x0 x1 x2 = k0_pay2 x0 (k0_pay1 x1 x2) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz, View.readCov_unit_zero (S := S1024x1024) _ hz]
  simp only [View.readAt_eq_ld, harg2.read_unread, harg3.read_unread, harg4.read_unread, View.ld_unit_zero (S := S512x1024) hz, View.ld_unit_zero (S := S1024x1024) hz]

/-- At any other step the output block is the product of the block of x with what the scratch held on entry. -/
theorem out_B (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S1024x1024 .bf16) (harg6 : arg6.IsWhole) (hc0 : ¬cond0_0 i)
    (x0 : Vec F S512x1024 .f32) (x1 : Vec F S1024x1024 .f32) (x2 : Vec F S1024x1024 .f32) (xs0 : Vec F S1024x1024 .bf16) :
    out0_B_3 c i arg2 harg2 arg3 harg3 arg4 harg4 arg5 harg5 arg6 harg6 hc0 x0 x1 x2 xs0 = k0_pay2 x0 xs0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero hz]
  simp only [View.readAt_eq_ld, harg2.read_unread, harg6.read_unread, View.ld_unit_zero (S := S512x1024) hz, View.ld_unit_zero (S := S1024x1024) hz]

end Cert.KernelIdeal.Pieces
end
-- ==== Proof.Spec.lean ====
/-
  The function both programs compute, on the extended reals.

  Inputs: x of shape [8192, 1024], and two weight arrays w, m of shape [1024, 1024].
  The gated weight is g(n, k) = tanh(w(n, k)) * logistic(m(n, k)), entry by entry, and the result is the
  product of x with the transpose of g:  y(r, n) = sum over k < 1024 of x(r, k) * g(n, k).

  One program forms each entry of y as one sum over all 1024 values of k; the other first takes the 512 low
  values of k (added to a zero), then adds the sum over the 512 high values. On the extended reals addition is
  commutative and associative (an additive commutative monoid, infinities included), so a sum over 1024 terms
  is the sum over its first half plus the sum over its second half, and adding to zero changes nothing: no
  finiteness of the entries is needed.
-/
import Idealize.ShloMosaic.PureOps.Ideal.Laws
import Idealize.ShloMosaic.Lib.ValueIdx
import Mathlib.Algebra.BigOperators.Fin

noncomputable section

namespace Cert.Nac

open Idealize.ShloMosaic Idealize.ShloMosaic.ValueIdx

/-- The shape of x and of the result. -/
abbrev SX : Shape := ⟨2, ![8192, 1024]⟩
/-- The shape of each weight array. -/
abbrev SW : Shape := ⟨2, ![1024, 1024]⟩

/-- The gated weights: tanh of the first array times the logistic function of the second, entry by entry. -/
def gate (w mm : FVec Ideal SW .f32) : FVec Ideal SW .f32 := mulf (tanh w) (logistic mm)

/-- The rows of x against the rows of g: entry (r, n) is the sum over k of x(r, k) * g(n, k). -/
def nac (x : FVec Ideal SX .f32) (g : FVec Ideal SW .f32) : FVec Ideal SX .f32 :=
  fun i => ∑ k : Fin 1024, x (ix2 (⟨(i 0).val, idx2_lt0 i⟩ : Fin 8192) k) * g (ix2 (⟨(i 1).val, idx2_lt1 i⟩ : Fin 1024) k)

theorem nac_apply (x : FVec Ideal SX .f32) (g : FVec Ideal SW .f32) (p : Fin 8192) (n : Fin 1024) :
    nac x g (ix2 p n) = ∑ k : Fin 1024, x (ix2 p k) * g (ix2 n k) := rfl

/-- A sum over 1024 terms is the sum over the 512 low indices plus the sum over the 512 high ones. -/
theorem sum_halves (f : Fin 1024 → EReal) :
    ∑ k : Fin 1024, f k
      = ∑ k : Fin 512, f ⟨k.val, by omega⟩ + ∑ k : Fin 512, f ⟨512 + k.val, by omega⟩ :=
  Fin.sum_univ_add (a := 512) (b := 512) f

/-- The two-step accumulation: a zero, plus the low half, plus the high half, is the whole sum. -/
theorem two_steps (f : Fin 1024 → EReal) :
    (0 + ∑ k : Fin 512, f ⟨k.val, by omega⟩) + ∑ k : Fin 512, f ⟨512 + k.val, by omega⟩ = ∑ k : Fin 1024, f k := by
  rw [zero_add, sum_halves]

end Cert.Nac

end
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.LibRowOpsFormats.lean ====
/-
  Rows against rows, whatever the operands' float formats.

  A matrix-unit product that contracts the last axis of an [a, n] and a [b, n] operand into a zero accumulator is, on the
  extended reals, the sum over k of x(p,k) * w(e,k) at (p, e) — also when the two operands are held in shorter float
  formats than the accumulator (a change of format is the identity there). The dimension record may be any record equal
  to "contract axis 1 of both, keep axis 0 of each, no batch axis".
-/
import proofs.«143479_g2000604538747211_pallasbulk_44_3_alg».proof.Proof.LibRowOps
import Idealize.ShloMosaic.PureOps.Ideal.Laws
import Idealize.ShloMosaic.Lib.ValueIdx

noncomputable section

open scoped BigOperators

namespace Cert.RowOps

open Idealize.ShloMosaic Idealize.ShloMosaic.ValueIdx

/-- A product contracting the last axis of an [a, n] and a [b, n] operand into the zero accumulator, whatever the
    operands' float formats, is at (p, e) the sum over k of x(p,k) * w(e,k). -/
theorem rows_matmul {a b n : ℕ} {φ₁ φ₂ : FTy}
    (wf : DotDims.WF ⟨2, ![a, n]⟩ ⟨2, ![b, n]⟩ ⟨2, ![a, b]⟩ [1] [1] [0] [0] [] [])
    (d : DotDims ⟨2, ![a, n]⟩ ⟨2, ![b, n]⟩ ⟨2, ![a, b]⟩) (hd : d = rowsDims wf)
    (x : FVec Ideal ⟨2, ![a, n]⟩ φ₁) (w : FVec Ideal ⟨2, ![b, n]⟩ φ₂) (p : Fin a) (e : Fin b) :
    FloatOps.matmul d none x w (constant ⟨2, ![a, b]⟩ .f32 0x00000000#32) (ix2 p e)
      = ∑ k : Fin n, x (ix2 p k) * w (ix2 e k) := by
  subst hd
  exact (Ideal.matmul_constant_zero_apply (rowsDims wf) none x w (ix2 p e)).trans (contraction_rows wf x w p e)

end Cert.RowOps

end
-- ==== Proof.KernelValue.lean ====
/-
  The kernel's result array, as one function of the argument arrays, on the extended reals.

  The kernel walks 16 grid steps; step t handles rows 512 t … 512 t + 511 of x. A scratch array, filled at the steps
  that open a run of eight and kept unchanged in between, holds g(n, k) = tanh(w(n, k)) * logistic(m(n, k)) at every
  step (induction on the step). The output block of step t is the product of block t of x with the transpose of the
  scratch, so its entry (p, n) is the sum over k of x(512 t + p, k) * g(n, k): on the extended reals the change of
  float format on the way into the product is the identity, and a product into a zero accumulator is the plain sum
  of products. The 16 blocks tile the result array, hence the array ends at
      y(r, n) = sum over k < 1024 of x(r, k) * tanh(w(n, k)) * logistic(m(n, k)).
-/
import proofs.«143479_g2000604538747211_pallasbulk_44_3_alg».proof.Proof.Gen.KernelIdeal.Value
import proofs.«143479_g2000604538747211_pallasbulk_44_3_alg».proof.Proof.KernelPieces
import proofs.«143479_g2000604538747211_pallasbulk_44_3_alg».proof.Proof.Spec
import proofs.«143479_g2000604538747211_pallasbulk_44_3_alg».proof.Proof.LibRowOpsFormats
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.NacValue

open Cert.KernelIdeal Cert.KernelIdeal.Gen Cert.Nac Idealize.ShloMosaic.ValueIdx

variable (m : (ℓ : Loc nD τ sig) → Buf (Elt Ideal) ℓ) (ρ : Dev nD → PrngReg)

/-- Block indices, decided over the 16 grid steps: x and the result move one block of rows per step; the weights
    are taken whole. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- The stored scratch value, entry by entry, is the gated weight: the change of format is the identity. -/
theorem gate_pay (w mm : Vec Ideal S1024x1024 .f32) (i : S1024x1024.Idx) : k0_pay1 (F := Ideal) w mm i = gate w mm i := by
  unfold k0_pay1 gate
  rw [shapeCast_self]
  rfl

/-- The output payload at (p, n): the inner product of row p of the block of x with row n of the scratch. -/
theorem prod_pay (x : Vec Ideal S512x1024 .f32) (g : Vec Ideal S1024x1024 .bf16) (p : Fin 512) (n : Fin 1024) :
    k0_pay2 (F := Ideal) x g (ix2 p n) = ∑ k : Fin 1024, x (ix2 p k) * g (ix2 n k) := by
  unfold k0_pay2
  exact Cert.RowOps.rows_matmul Gen.dot_S512x1024_S1024x1024_S512x1024_1_1_0_0_n_n_wf _ rfl (truncf .bf16 x Gen.bitsLt_bf16_f32) g p n

/-- The one block of each weight array is the array itself (block index (0, 0), block size the array's). -/
theorem wblk1 (c : Dev nD) (t : Fin cfg0.N) : (iblk m c 1 t : Vec Ideal S1024x1024 .f32) = m ((c : Thread nD τ).loc main_arg1) := by
  funext y
  unfold iblk
  rw [View.read_apply]
  show V m c main_arg1 _ = m ((c : Thread nD τ).loc main_arg1) y
  unfold V
  congr 1
  funext a
  apply Fin.ext
  match a with
  | ⟨0, _⟩ => show win0_1.index t 0 * 1024 + 1 * (y 0).val = (y 0).val; rw [(idx1 t).1]; omega
  | ⟨1, _⟩ => show win0_1.index t 1 * 1024 + 1 * (y 1).val = (y 1).val; rw [(idx1 t).2]; omega

theorem wblk2 (c : Dev nD) (t : Fin cfg0.N) : (iblk m c 2 t : Vec Ideal S1024x1024 .f32) = m ((c : Thread nD τ).loc main_arg2) := by
  funext y
  unfold iblk
  rw [View.read_apply]
  show V m c main_arg2 _ = m ((c : Thread nD τ).loc main_arg2) y
  unfold V
  congr 1
  funext a
  apply Fin.ext
  match a with
  | ⟨0, _⟩ => show win0_2.index t 0 * 1024 + 1 * (y 0).val = (y 0).val; rw [(idx2 t).1]; omega
  | ⟨1, _⟩ => show win0_2.index t 1 * 1024 + 1 * (y 1).val = (y 1).val; rw [(idx2 t).2]; omega

/-- Row p of block t is row 512 t + p of x. -/
theorem row_lt (t : Fin cfg0.N) (p : Fin 512) : t.val * 512 + p.val < 8192 := by
  have hN : t.val < 16 := lt_of_lt_of_eq t.isLt (show cfg0.N = 16 from N_0)
  have := p.isLt
  omega

/-- Entry (p, k) of block t of x. -/
theorem xblk_apply (c : Dev nD) (t : Fin cfg0.N) (p : Fin 512) (k : Fin 1024) :
    (iblk m c 0 t : Vec Ideal S512x1024 .f32) (ix2 p k) = m ((c : Thread nD τ).loc main_arg0) (ix2 ⟨t.val * 512 + p.val, row_lt t p⟩ k) := by
  unfold iblk
  rw [View.read_apply]
  show V m c main_arg0 _ = m ((c : Thread nD τ).loc main_arg0) _
  unfold V
  congr 1
  funext a
  apply Fin.ext
  match a with
  | ⟨0, _⟩ => show win0_0.index t 0 * 512 + 1 * p.val = t.val * 512 + p.val; rw [(idx0 t).1]; omega
  | ⟨1, _⟩ => show win0_0.index t 1 * 1024 + 1 * k.val = k.val; rw [(idx0 t).2]; omega

/-- After every grid step the scratch holds the gated weights: stored at the steps that open a run of eight, kept at
    the others. -/
theorem scratch_eq (c : Dev nD) : ∀ (n : ℕ) (h : n < cfg0.N),
    (outsAt0 m c n h).2 = k0_pay1 (m ((c : Thread nD τ).loc main_arg1)) (m ((c : Thread nD τ).loc main_arg2))
  | 0, h => by
    rw [outsAt0_A m c ⟨0, h⟩ rfl]
    dsimp only
    rw [Pieces.scratch_A, wblk1, wblk2]
  | n + 1, h => by
    by_cases h0 : (n + 1) % 8 = 0
    · rw [outsAt0_A m c ⟨n + 1, h⟩ h0]
      dsimp only
      rw [Pieces.scratch_A, wblk1, wblk2]
    · rw [outsAt0_B m c ⟨n + 1, h⟩ h0]
      dsimp only
      unfold sout0_B_0
      exact scratch_eq c n _

/-- So the output block after step t is the product of block t of x with the gated weights. -/
theorem out_eq (c : Dev nD) (t : Fin cfg0.N) :
    (outsAt0 m c t.val t.isLt).1 = k0_pay2 (iblk m c 0 t) (k0_pay1 (m ((c : Thread nD τ).loc main_arg1)) (m ((c : Thread nD τ).loc main_arg2))) := by
  by_cases h0 : t.val % 8 = 0
  · rw [outsAt0_A m c t h0]
    dsimp only
    rw [Pieces.out_A, wblk1, wblk2]
  · rw [outsAt0_B m c t h0]
    dsimp only
    rw [Pieces.out_B, scratch_eq]

/-- The result: x times the transpose of the gated weights. -/
abbrev result (c : Dev nD) : Buf (Elt Ideal) ((c : Thread nD τ).loc main_v0) :=
  nac (m ((c : Thread nD τ).loc main_arg0)) (gate (m ((c : Thread nD τ).loc main_arg1)) (m ((c : Thread nD τ).loc main_arg2)))

/-- Entry (p, n) of output block t sits at (512 t + p, n) of the result array. -/
theorem emb3 (t : Fin cfg0.N) (p : Fin 512) (n : Fin 1024) :
    ((cfg0.win 3).blk t).view.emb (ix2 p n : S512x1024.Idx) = (ix2 (⟨t.val * 512 + p.val, row_lt t p⟩ : Fin 8192) n : S8192x1024.Idx) := by
  funext a
  apply Fin.ext
  match a with
  | ⟨0, _⟩ => show win0_3.index t 0 * 512 + 1 * p.val = t.val * 512 + p.val; rw [(idx3 t).1]; omega
  | ⟨1, _⟩ => show win0_3.index t 1 * 1024 + 1 * n.val = n.val; rw [(idx3 t).2]; omega

/-- What step t writes back is block t of the result function. -/
theorem flushed_eq (c : Dev nD) (t : Fin cfg0.N) :
    (dats m 0 c).flushed 3 t = ((cfg0.win 3).blk t).view.read (Elt Ideal) (result m c) := by
  rw [Value.flushed3, out_eq]
  funext (y : S512x1024.Idx)
  obtain ⟨p, n, rfl⟩ : ∃ (p : Fin 512) (n : Fin 1024), y = ix2 p n := ⟨y 0, y 1, eq_ix2 y⟩
  rw [View.read_apply]
  show k0_pay2 (iblk m c 0 t) (k0_pay1 (m ((c : Thread nD τ).loc main_arg1)) (m ((c : Thread nD τ).loc main_arg2))) (ix2 p n)
    = result m c (((cfg0.win 3).blk t).view.emb (ix2 p n))
  rw [emb3, prod_pay]
  show _ = nac _ _ (ix2 _ n)
  rw [nac_apply]
  refine Finset.sum_congr rfl fun k _ => ?_
  rw [xblk_apply, gate_pay]

/-- An index is in block t iff each coordinate is in the block's range. -/
theorem mem_blk3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0).slice (win0_3.rect t)).set ↔ _
  rw [View.set_slice_whole, Rect.mem_set_unit]
  exact Iff.rfl

/-- The blocks tile the array (row r is in block r / 512), so the array ends at the result function. -/
theorem final (c : Dev nD) : (dats m 0 c).arrAt 3 cfg0.N = result m c :=
  (dats m 0 c).arrAt_eq_of_cover 3 (result m c) (fun t _ => flushed_eq m c t) fun i => by
    have h0 : (i 0).val < 8192 := (i 0).isLt
    have h1 : (i 1).val < 1024 := (i 1).isLt
    have hN : cfg0.N = 16 := N_0
    have ht : (i 0).val / 512 < cfg0.N := by omega
    refine ⟨⟨(i 0).val / 512, ht⟩, flush0_3 _, ?_⟩
    rw [mem_blk3]
    have e0 : win0_3.index ⟨(i 0).val / 512, ht⟩ (0 : Fin 2) = (i 0).val / 512 := (idx3 ⟨(i 0).val / 512, ht⟩).1
    have e1 : win0_3.index ⟨(i 0).val / 512, ht⟩ (1 : Fin 2) = 0 := (idx3 ⟨(i 0).val / 512, ht⟩).2
    intro a
    match a with
    | ⟨0, _⟩ => show win0_3.index ⟨(i 0).val / 512, ht⟩ (0 : Fin 2) * 512 ≤ (i 0).val ∧ (i 0).val < win0_3.index ⟨(i 0).val / 512, ht⟩ (0 : Fin 2) * 512 + 512; rw [e0]; omega
    | ⟨1, _⟩ => show win0_3.index ⟨(i 0).val / 512, ht⟩ (1 : Fin 2) * 1024 ≤ (i 1).val ∧ (i 1).val < win0_3.index ⟨(i 0).val / 512, ht⟩ (1 : Fin 2) * 1024 + 1024; rw [e1]; omega

/-- The kernel's run: the result array at the result function, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.NacValue
end
-- ==== Proof.RefRun.lean ====
/-
  The reference program's run, with its result array named.

  The reference is two launches in a row: the first writes the gated weights, block by block, into an
  intermediate array; the second reads x and that intermediate array and accumulates the product into the result.
  Every weakly fair execution ends with the result array at what the second launch's write-backs leave, read from the
  contents the first launch left, and with the three argument arrays as launched. Nothing here says yet WHAT those
  contents are as a function of the arguments: that is the value modules' part.
-/
import proofs.«143479_g2000604538747211_pallasbulk_44_3_alg».proof.Proof.Gen.ReferenceIdeal.Frame

set_option maxRecDepth 16384

noncomputable section

namespace Cert.ReferenceIdeal.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates, nothing faulting, with the result array at what the second
    launch's write-backs leave over the contents the first launch left, and the arguments unchanged. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_arr m ρ c 2),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.ReferenceIdeal.RefRun

end
-- ==== Proof.RefPieces.lean ====
/-
  What one grid step of each of the reference's two launches leaves in its output buffer, as values.

  First launch (the gate): one store of tanh(x0) * logistic(x1) of the two 512x512 input blocks.
  Second launch (the accumulating product): the step that opens a pair (third grid coordinate 0) stores a zero block,
  reads it back, and stores zero + (x-block times the transpose of the weight block); the step that closes the pair
  reads what the opening step left (xo2) and stores xo2 + (x-block times the transpose of the weight block).
  Each statement holds for any float instance.
-/
import proofs.«143479_g2000604538747211_pallasbulk_44_3_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.ReferenceIdeal.Pieces

open Cert.ReferenceIdeal Cert.ReferenceIdeal.Gen

variable {F : FTy → Type} [FloatOps F]

/-- The zero offsets, as a constant function. -/
theorem hz : (![0, 0] : Fin 2 → Nat) = fun _ => 0 := funext fun a => by fin_cases a <;> rfl

/-- The gate's output block: its one covering store's payload, whose loads read the whole input blocks. -/
theorem gate_block (x0 x1 : Vec F S512x512 .f32) : out0_2 x0 x1 = k0_pay1 x0 x1 := by
  unfold out0_2
  rw [View.canon_unit_zero hz]
  simp only [View.ld_unit_zero (S := S512x512) hz]

/-- The opening step of a pair: the zero block is stored and read back, so the block ends at zero plus the product. -/
theorem acc_A (c : Dev nD) (i : grid1.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : cond1_0 i)
    (x0 : Vec F S512x512 .f32) (x1 : Vec F S512x512 .f32) :
    out1_A_2 c i arg3 harg3 arg4 harg4 arg5 harg5 hc0 x0 x1 = k1_pay2 k1_pay1 x0 x1 := by
  unfold out1_A_2
  rw [View.read_writes_eq_canon _ _ _ (cover1_A_2 c i arg3 harg3 arg4 harg4 arg5 harg5 hc0 x0 x1)]
  unfold kernelRun1_A
  dsimp only
  sl_unfold_words
  rw [View.canon_cons_unit_zero (S := S512x512) hz, View.readCov_unit_zero (S := S512x512) _ hz]
  simp only [View.readAt_eq_ld, harg3.read_unread, harg4.read_unread, View.ld_unit_zero (S := S512x512) hz]

/-- The closing step of a pair: the block ends at what it held plus the product. -/
theorem acc_B (c : Dev nD) (i : grid1.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (hc0 : ¬cond1_0 i)
    (x0 : Vec F S512x512 .f32) (x1 : Vec F S512x512 .f32) (xo2 : Vec F S512x512 .f32) :
    out1_B_2 c i arg3 harg3 arg4 harg4 arg5 harg5 hc0 x0 x1 xo2 = k1_pay2 xo2 x0 x1 := by
  unfold out1_B_2
  rw [View.read_writes_eq_canon _ _ _ (cover1_B_2 c i arg3 harg3 arg4 harg4 arg5 harg5 hc0 x0 x1 xo2)]
  unfold kernelRun1_B
  dsimp only
  rw [View.canon_unit_zero hz]
  simp only [View.readAt_eq_ld, harg3.read_unread, harg4.read_unread, harg5.read_unread, View.ld_unit_zero (S := S512x512) hz]

end Cert.ReferenceIdeal.Pieces
end
-- ==== Proof.RefGate.lean ====
/-
  The reference's first launch: the intermediate array it leaves is the gated weights.

  The launch walks a 2 x 2 grid of 512 x 512 blocks; step t handles block (t / 2, t % 2) of both weight arrays and of
  the intermediate array, and stores tanh(w) * logistic(m) entry by entry. The four blocks tile the array, so it ends at
  g(n, k) = tanh(w(n, k)) * logistic(m(n, k)). Stated for any contents V of the buffers when the launch is entered.
-/
import proofs.«143479_g2000604538747211_pallasbulk_44_3_alg».proof.Proof.Gen.ReferenceIdeal.Frame
import proofs.«143479_g2000604538747211_pallasbulk_44_3_alg».proof.Proof.RefPieces
import proofs.«143479_g2000604538747211_pallasbulk_44_3_alg».proof.Proof.Spec
import proofs.«143479_g2000604538747211_pallasbulk_44_3_alg».proof.Proof.LibRowOps
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.ReferenceIdeal.GateValue

open Cert.ReferenceIdeal Cert.ReferenceIdeal.Gen Cert.Nac Idealize.ShloMosaic.ValueIdx

variable (V : (c : Dev nD) → (b : Ref sig .tc) → Buf (Elt Ideal) ((c : Thread nD τ).loc b))

/-- Block indices, decided over the 4 grid steps. -/
theorem gidx : ∀ t : Fin cfg0.N,
    (win0_0.index t (0 : Fin 2) = t.val / 2 ∧ win0_0.index t (1 : Fin 2) = t.val % 2)
    ∧ (win0_1.index t (0 : Fin 2) = t.val / 2 ∧ win0_1.index t (1 : Fin 2) = t.val % 2)
    ∧ (win0_2.index t (0 : Fin 2) = t.val / 2 ∧ win0_2.index t (1 : Fin 2) = t.val % 2) :=
  (by decide +kernel : ∀ t : Fin grid0.N,
    (win0_0.index t (0 : Fin 2) = t.val / 2 ∧ win0_0.index t (1 : Fin 2) = t.val % 2)
    ∧ (win0_1.index t (0 : Fin 2) = t.val / 2 ∧ win0_1.index t (1 : Fin 2) = t.val % 2)
    ∧ (win0_2.index t (0 : Fin 2) = t.val / 2 ∧ win0_2.index t (1 : Fin 2) = t.val % 2))

/-- Positions inside the arrays stay in range. -/
theorem pos_lt (t : Fin cfg0.N) (p : Fin 512) : (t.val / 2) * 512 + p.val < 1024 ∧ (t.val % 2) * 512 + p.val < 1024 := by
  have hN : t.val < 4 := lt_of_lt_of_eq t.isLt (show cfg0.N = 4 from N_0)
  have := p.isLt
  omega

/-- where entry (p, q) of block t sits in a [1024, 1024] array -/
abbrev at0 (t : Fin cfg0.N) (p q : Fin 512) : S1024x1024.Idx :=
  ix2 (⟨(t.val / 2) * 512 + p.val, (pos_lt t p).1⟩ : Fin 1024) (⟨(t.val % 2) * 512 + q.val, (pos_lt t q).2⟩ : Fin 1024)

/-- Entry (p, q) of block t of the first weight array, -/
theorem blk0_apply (c : Dev nD) (t : Fin cfg0.N) (p q : Fin 512) :
    (iblk0 V c 0 t : Vec Ideal S512x512 .f32) (ix2 p q) = V c main_arg1 (at0 t p q) := by
  unfold iblk0
  rw [View.read_apply]
  show V c main_arg1 _ = V c main_arg1 _
  congr 1
  funext a
  apply Fin.ext
  match a with
  | ⟨0, _⟩ => show win0_0.index t 0 * 512 + 1 * p.val = (t.val / 2) * 512 + p.val; rw [(gidx t).1.1]; omega
  | ⟨1, _⟩ => show win0_0.index t 1 * 512 + 1 * q.val = (t.val % 2) * 512 + q.val; rw [(gidx t).1.2]; omega

/-- of the second, -/
theorem blk1_apply (c : Dev nD) (t : Fin cfg0.N) (p q : Fin 512) :
    (iblk0 V c 1 t : Vec Ideal S512x512 .f32) (ix2 p q) = V c main_arg2 (at0 t p q) := by
  unfold iblk0
  rw [View.read_apply]
  show V c main_arg2 _ = V c main_arg2 _
  congr 1
  funext a
  apply Fin.ext
  match a with
  | ⟨0, _⟩ => show win0_1.index t 0 * 512 + 1 * p.val = (t.val / 2) * 512 + p.val; rw [(gidx t).2.1.1]; omega
  | ⟨1, _⟩ => show win0_1.index t 1 * 512 + 1 * q.val = (t.val % 2) * 512 + q.val; rw [(gidx t).2.1.2]; omega

/-- and where entry (p, q) of output block t sits. -/
theorem emb2 (t : Fin cfg0.N) (p q : Fin 512) :
    ((cfg0.win 2).blk t).view.emb (ix2 p q : S512x512.Idx) = at0 t p q := by
  funext a
  apply Fin.ext
  match a with
  | ⟨0, _⟩ => show win0_2.index t 0 * 512 + 1 * p.val = (t.val / 2) * 512 + p.val; rw [(gidx t).2.2.1]; omega
  | ⟨1, _⟩ => show win0_2.index t 1 * 512 + 1 * q.val = (t.val % 2) * 512 + q.val; rw [(gidx t).2.2.2]; omega

/-- The stored value, entry by entry. -/
theorem pay_apply (x0 x1 : FVec Ideal S512x512 .f32) (y : S512x512.Idx) :
    k0_pay1 (F := Ideal) x0 x1 y = FloatOps.mulf (FloatOps.tanh (x0 y)) (FloatOps.logistic (x1 y)) := rfl

/-- An index is in block t iff each coordinate is in the block's range. -/
theorem mem_blk (t : Fin cfg0.N) (i : S1024x1024.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- What step t writes back is block t of the gated weights. -/
theorem flushed_eq (c : Dev nD) (t : Fin cfg0.N) :
    (dat0 V c).flushed 2 t = ((cfg0.win 2).blk t).view.read (Elt Ideal) (gate (V c main_arg1) (V c main_arg2)) := by
  show (cfg0.win 2).cut (grid0.coords t) ((dat0 V c).after 2 t) = _
  rw [after0_2, Pieces.gate_block]
  funext (y : S512x512.Idx)
  obtain ⟨p, q, rfl⟩ : ∃ (p q : Fin 512), y = ix2 p q := ⟨y 0, y 1, eq_ix2 y⟩
  rw [View.read_apply]
  show k0_pay1 (iblk0 V c 0 t) (iblk0 V c 1 t) (ix2 p q) = gate (V c main_arg1) (V c main_arg2) (((cfg0.win 2).blk t).view.emb (ix2 p q))
  rw [emb2]
  refine (pay_apply (iblk0 V c 0 t) (iblk0 V c 1 t) (ix2 p q)).trans ?_
  rw [blk0_apply, blk1_apply]
  rfl

/-- The four blocks tile the array: it ends at the gated weights. -/
theorem final (c : Dev nD) : (dat0 V c).arrAt 2 cfg0.N = gate (V c main_arg1) (V c main_arg2) :=
  (dat0 V c).arrAt_eq_of_cover 2 _ (fun t _ => flushed_eq V c t) fun i => by
    have h0 : (i 0).val < 1024 := (i 0).isLt
    have h1 : (i 1).val < 1024 := (i 1).isLt
    have hN : cfg0.N = 4 := N_0
    have ht : (i 0).val / 512 * 2 + (i 1).val / 512 < cfg0.N := by omega
    refine ⟨⟨(i 0).val / 512 * 2 + (i 1).val / 512, ht⟩, flush0_2 _, ?_⟩
    rw [mem_blk]
    have e0 : win0_2.index ⟨(i 0).val / 512 * 2 + (i 1).val / 512, ht⟩ (0 : Fin 2) = ((i 0).val / 512 * 2 + (i 1).val / 512) / 2 := (gidx ⟨_, ht⟩).2.2.1
    have e1 : win0_2.index ⟨(i 0).val / 512 * 2 + (i 1).val / 512, ht⟩ (1 : Fin 2) = ((i 0).val / 512 * 2 + (i 1).val / 512) % 2 := (gidx ⟨_, ht⟩).2.2.2
    intro a
    match a with
    | ⟨0, _⟩ => show win0_2.index ⟨(i 0).val / 512 * 2 + (i 1).val / 512, ht⟩ (0 : Fin 2) * 512 ≤ (i 0).val ∧ (i 0).val < win0_2.index ⟨(i 0).val / 512 * 2 + (i 1).val / 512, ht⟩ (0 : Fin 2) * 512 + 512; rw [e0]; omega
    | ⟨1, _⟩ => show win0_2.index ⟨(i 0).val / 512 * 2 + (i 1).val / 512, ht⟩ (1 : Fin 2) * 512 ≤ (i 1).val ∧ (i 1).val < win0_2.index ⟨(i 0).val / 512 * 2 + (i 1).val / 512, ht⟩ (1 : Fin 2) * 512 + 512; rw [e1]; omega

end Cert.ReferenceIdeal.GateValue
end
-- ==== Proof.RefAcc.lean ====
/-
  The reference's second launch: the result array it leaves is x times the transpose of the intermediate array.

  The launch walks a 2 x 16 x 2 grid, step t = 32 j + 2 i + s: block (i, s) of x (rows 512 i …, columns 512 s …), block
  (j, s) of the intermediate array g, output block (i, j). The output block stays in its buffer over the pair s = 0, 1
  and is written back after s = 1. At s = 0 the body stores a zero block and then zero + (x-block times the transpose
  of the g-block); at s = 1 it adds the product of the next pair of blocks to what the buffer holds. Entry (p, e) of
  a product of 512 x 512 blocks is the sum over k < 512 of xblock(p, k) * gblock(e, k), so after the pair the entry at
  row r = 512 i + p, column n = 512 j + e is
      (0 + sum over k < 512 of x(r, k) * g(n, k)) + sum over k < 512 of x(r, 512 + k) * g(n, 512 + k),
  which is the sum over all k < 1024 (addition on the extended reals is commutative and associative; no finiteness
  is used). The 32 written-back blocks tile the result array. Stated for any contents V of the buffers at entry.
-/
import proofs.«143479_g2000604538747211_pallasbulk_44_3_alg».proof.Proof.Gen.ReferenceIdeal.Frame
import proofs.«143479_g2000604538747211_pallasbulk_44_3_alg».proof.Proof.RefPieces
import proofs.«143479_g2000604538747211_pallasbulk_44_3_alg».proof.Proof.Spec
import proofs.«143479_g2000604538747211_pallasbulk_44_3_alg».proof.Proof.LibRowOps
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.ReferenceIdeal.AccValue

open Cert.ReferenceIdeal Cert.ReferenceIdeal.Gen Cert.Nac Idealize.ShloMosaic.ValueIdx

variable (V : (c : Dev nD) → (b : Ref sig .tc) → Buf (Elt Ideal) ((c : Thread nD τ).loc b))

/-- Block indices, decided over the 64 grid steps. -/
theorem aidx : ∀ t : Fin cfg1.N,
    (win1_0.index t (0 : Fin 2) = t.val / 2 % 16 ∧ win1_0.index t (1 : Fin 2) = t.val % 2)
    ∧ (win1_1.index t (0 : Fin 2) = t.val / 32 ∧ win1_1.index t (1 : Fin 2) = t.val % 2)
    ∧ (win1_2.index t (0 : Fin 2) = t.val / 2 % 16 ∧ win1_2.index t (1 : Fin 2) = t.val / 32) :=
  (by decide +kernel : ∀ t : Fin grid1.N,
    (win1_0.index t (0 : Fin 2) = t.val / 2 % 16 ∧ win1_0.index t (1 : Fin 2) = t.val % 2)
    ∧ (win1_1.index t (0 : Fin 2) = t.val / 32 ∧ win1_1.index t (1 : Fin 2) = t.val % 2)
    ∧ (win1_2.index t (0 : Fin 2) = t.val / 2 % 16 ∧ win1_2.index t (1 : Fin 2) = t.val / 32))

/-- Entry (p, k) of the block of x at step t is x at row 512 (t / 2 % 16) + p, column 512 (t % 2) + k. -/
theorem xblk_at (c : Dev nD) (t : Fin cfg1.N) (p k : Fin 512) (r : Fin 8192) (kk : Fin 1024)
    (hr : r.val = t.val / 2 % 16 * 512 + p.val) (hk : kk.val = t.val % 2 * 512 + k.val) :
    (iblk1 V c 0 t : Vec Ideal S512x512 .f32) (ix2 p k) = V c main_arg0 (ix2 r kk) := by
  unfold iblk1
  rw [View.read_apply]
  show V c main_arg0 _ = V c main_arg0 _
  congr 1
  funext a
  apply Fin.ext
  match a with
  | ⟨0, _⟩ => show win1_0.index t 0 * 512 + 1 * p.val = r.val; rw [(aidx t).1.1]; omega
  | ⟨1, _⟩ => show win1_0.index t 1 * 512 + 1 * k.val = kk.val; rw [(aidx t).1.2]; omega

/-- Entry (e, k) of the block of the intermediate array at step t is at row 512 (t / 32) + e, column 512 (t % 2) + k. -/
theorem wblk_at (c : Dev nD) (t : Fin cfg1.N) (e k : Fin 512) (n kk : Fin 1024)
    (hn : n.val = t.val / 32 * 512 + e.val) (hk : kk.val = t.val % 2 * 512 + k.val) :
    (iblk1 V c 1 t : Vec Ideal S512x512 .f32) (ix2 e k) = V c main_v0 (ix2 n kk) := by
  unfold iblk1
  rw [View.read_apply]
  show V c main_v0 _ = V c main_v0 _
  congr 1
  funext a
  apply Fin.ext
  match a with
  | ⟨0, _⟩ => show win1_1.index t 0 * 512 + 1 * e.val = n.val; rw [(aidx t).2.1.1]; omega
  | ⟨1, _⟩ => show win1_1.index t 1 * 512 + 1 * k.val = kk.val; rw [(aidx t).2.1.2]; omega

/-- Entry (p, e) of the output block at step t sits at row 512 (t / 2 % 16) + p, column 512 (t / 32) + e. -/
theorem emb_out (t : Fin cfg1.N) (p e : Fin 512) (r : Fin 8192) (n : Fin 1024)
    (hr : r.val = t.val / 2 % 16 * 512 + p.val) (hn : n.val = t.val / 32 * 512 + e.val) :
    ((cfg1.win 2).blk t).view.emb (ix2 p e : S512x512.Idx) = (ix2 r n : S8192x1024.Idx) := by
  funext a
  apply Fin.ext
  match a with
  | ⟨0, _⟩ => show win1_2.index t 0 * 512 + 1 * p.val = r.val; rw [(aidx t).2.2.1]; omega
  | ⟨1, _⟩ => show win1_2.index t 1 * 512 + 1 * e.val = n.val; rw [(aidx t).2.2.2]; omega

/-- The stored payload at (p, e): what the buffer held there plus the inner product of row p of the x-block with row e
    of the g-block (a product into a zero accumulator is the plain sum of products, whatever the requested precision). -/
theorem acc_pay (acc xb wb : FVec Ideal S512x512 .f32) (p e : Fin 512) :
    k1_pay2 (F := Ideal) acc xb wb (ix2 p e) = acc (ix2 p e) + ∑ k : Fin 512, xb (ix2 p k) * wb (ix2 e k) := by
  unfold k1_pay2
  rw [shapeCast_self, shapeCast_self]
  exact congrArg (acc (ix2 p e) + ·) (Cert.RowOps.matmul_rows_apply Gen.dot_S512x512_S512x512_S512x512_1_1_0_0_n_n_wf (some .fp32) xb wb p e)

/-- The block stored at the opening step of a pair is zero. -/
theorem zero_pay (y : S512x512.Idx) : k1_pay1 (F := Ideal) y = (0 : EReal) := by
  unfold k1_pay1
  exact Ideal.ofBits_zero_f32

/-- After the closing step of a pair the buffer holds, entry by entry, the whole inner product over k < 1024: zero,
    plus the low half, plus the high half. -/
theorem pair_eq (c : Dev nD) (t : Fin cfg1.N) (ht : t.val % 2 = 1) (p e : Fin 512) (r : Fin 8192) (n : Fin 1024)
    (hr : r.val = t.val / 2 % 16 * 512 + p.val) (hn : n.val = t.val / 32 * 512 + e.val) :
    outsAt1 V c t.val t.isLt (ix2 p e) = nac (V c main_arg0) (V c main_v0) (ix2 r n) := by
  have hN : t.val < 64 := lt_of_lt_of_eq t.isLt (show cfg1.N = 64 from N_1)
  have hB : ¬ t.val % 2 = 0 := by omega
  have hlt : t.val - 1 < cfg1.N := lt_of_le_of_lt (Nat.sub_le _ _) t.isLt
  have hA : (⟨t.val - 1, hlt⟩ : Fin cfg1.N).val % 2 = 0 := by show (t.val - 1) % 2 = 0; omega
  have hprev := outsAt1_A V c ⟨t.val - 1, hlt⟩ hA
  rw [outsAt1_B V c t hB, Pieces.acc_B]
  refine (acc_pay _ _ _ p e).trans ?_
  dsimp only at hprev
  rw [hprev, Pieces.acc_A]
  rw [show k1_pay2 k1_pay1 (iblk1 V c 0 ⟨t.val - 1, hlt⟩) (iblk1 V c 1 ⟨t.val - 1, hlt⟩) (ix2 p e) = _ from acc_pay _ _ _ p e, zero_pay]
  rw [nac_apply]
  refine Eq.trans ?_ (two_steps _)
  congr 1
  · congr 1
    refine Finset.sum_congr rfl fun k _ => ?_
    exact congrArg₂ (fun a b : EReal => a * b) (xblk_at V c _ p k _ _ (by first | omega | (dsimp only; omega)) (by first | omega | (dsimp only; omega)))
      (wblk_at V c _ e k _ _ (by first | omega | (dsimp only; omega)) (by first | omega | (dsimp only; omega)))
  · refine Finset.sum_congr rfl fun k _ => ?_
    exact congrArg₂ (fun a b : EReal => a * b) (xblk_at V c _ p k _ _ (by first | omega | (dsimp only; omega)) (by first | omega | (dsimp only; omega)))
      (wblk_at V c _ e k _ _ (by first | omega | (dsimp only; omega)) (by first | omega | (dsimp only; omega)))

/-- An index is in block t iff each coordinate is in the block's range. -/
theorem mem_blk (t : Fin cfg1.N) (i : S8192x1024.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v1).slice (win1_2.rect t)).set ↔ _
  rw [View.set_slice_whole, Rect.mem_set_unit]
  exact Iff.rfl

/-- What a closing step writes back is its block of the product. -/
theorem flushed_eq (c : Dev nD) (t : Fin cfg1.N) (hf : (cfg1.win 2).flush t = true) :
    (dat1 V c).flushed 2 t = ((cfg1.win 2).blk t).view.read (Elt Ideal) (nac (V c main_arg0) (V c main_v0)) := by
  have ht : t.val % 2 = 1 := (flush1_2 t).mp hf
  have hN : t.val < 64 := lt_of_lt_of_eq t.isLt (show cfg1.N = 64 from N_1)
  show (cfg1.win 2).cut (grid1.coords t) ((dat1 V c).after 2 t) = _
  rw [after1_2]
  funext (y : S512x512.Idx)
  obtain ⟨p, e, rfl⟩ : ∃ (p e : Fin 512), y = ix2 p e := ⟨y 0, y 1, eq_ix2 y⟩
  rw [View.read_apply]
  show outsAt1 V c t.val t.isLt (ix2 p e) = nac (V c main_arg0) (V c main_v0) (((cfg1.win 2).blk t).view.emb (ix2 p e))
  have hp := p.isLt
  have he := e.isLt
  rw [emb_out t p e ⟨t.val / 2 % 16 * 512 + p.val, by omega⟩ ⟨t.val / 32 * 512 + e.val, by omega⟩ rfl rfl]
  exact pair_eq V c t ht p e _ _ rfl rfl

/-- The written-back blocks tile the result array (entry (r, n) is written at step 32 (n / 512) + 2 (r / 512) + 1),
    so the array ends at the product. -/
theorem final (c : Dev nD) : (dat1 V c).arrAt 2 cfg1.N = nac (V c main_arg0) (V c main_v0) :=
  (dat1 V c).arrAt_eq_of_cover 2 _ (fun t hf => flushed_eq V c t hf) fun i => by
    have h0 : (i 0).val < 8192 := (i 0).isLt
    have h1 : (i 1).val < 1024 := (i 1).isLt
    have hN : cfg1.N = 64 := N_1
    have ht : (i 1).val / 512 * 32 + (i 0).val / 512 * 2 + 1 < cfg1.N := by omega
    refine ⟨⟨(i 1).val / 512 * 32 + (i 0).val / 512 * 2 + 1, ht⟩, (flush1_2 _).mpr (by show ((i 1).val / 512 * 32 + (i 0).val / 512 * 2 + 1) % 2 = 1; omega), ?_⟩
    rw [mem_blk]
    have e0 : win1_2.index ⟨(i 1).val / 512 * 32 + (i 0).val / 512 * 2 + 1, ht⟩ (0 : Fin 2) = ((i 1).val / 512 * 32 + (i 0).val / 512 * 2 + 1) / 2 % 16 := (aidx ⟨_, ht⟩).2.2.1
    have e1 : win1_2.index ⟨(i 1).val / 512 * 32 + (i 0).val / 512 * 2 + 1, ht⟩ (1 : Fin 2) = ((i 1).val / 512 * 32 + (i 0).val / 512 * 2 + 1) / 32 := (aidx ⟨_, ht⟩).2.2.2
    intro a
    match a with
    | ⟨0, _⟩ => show win1_2.index ⟨(i 1).val / 512 * 32 + (i 0).val / 512 * 2 + 1, ht⟩ (0 : Fin 2) * 512 ≤ (i 0).val ∧ (i 0).val < win1_2.index ⟨(i 1).val / 512 * 32 + (i 0).val / 512 * 2 + 1, ht⟩ (0 : Fin 2) * 512 + 512; rw [e0]; omega
    | ⟨1, _⟩ => show win1_2.index ⟨(i 1).val / 512 * 32 + (i 0).val / 512 * 2 + 1, ht⟩ (1 : Fin 2) * 512 ≤ (i 1).val ∧ (i 1).val < win1_2.index ⟨(i 1).val / 512 * 32 + (i 0).val / 512 * 2 + 1, ht⟩ (1 : Fin 2) * 512 + 512; rw [e1]; omega

end Cert.ReferenceIdeal.AccValue
end
-- ==== Proof.RefValue.lean ====
/-
  The reference's result array, as one function of the argument arrays, on the extended reals.

  The second launch is entered with x as launched (the first launch does not touch it) and with the intermediate array
  at the gated weights g (the first launch's result). It leaves the product of x with the transpose of what it finds in
  the intermediate array. So the reference ends at y(r, n) = sum over k < 1024 of x(r, k) * g(n, k).
-/
import proofs.«143479_g2000604538747211_pallasbulk_44_3_alg».proof.Proof.RefRun
import proofs.«143479_g2000604538747211_pallasbulk_44_3_alg».proof.Proof.RefGate
import proofs.«143479_g2000604538747211_pallasbulk_44_3_alg».proof.Proof.RefAcc

noncomputable section

open Idealize.ShloMosaic Idealize.ShloMosaic.TcCoe Idealize.SL.Sem
open Idealize.ShloMosaic.Pipeline (Dat)

namespace Cert.ReferenceIdeal.NacValue

open Cert.ReferenceIdeal Cert.ReferenceIdeal.Gen Cert.Nac

variable (m : (ℓ : Loc nD τ sig) → Buf (Elt Ideal) ℓ) (ρ : Dev nD → PrngReg)

/-- The second launch finds x as launched: the first launch's windows do not stage it. -/
theorem entry_x (c : Dev nD) : V1 m ρ c main_arg0 = m ((c : Thread nD τ).loc main_arg0) :=
  W1_of_ne m ρ c main_arg0 (by decide)

/-- The second launch finds the intermediate array at the gated weights: what the first launch's write-backs leave. -/
theorem entry_g (c : Dev nD) :
    V1 m ρ c main_v0 = gate (m ((c : Thread nD τ).loc main_arg1)) (m ((c : Thread nD τ).loc main_arg2)) :=
  (W1_arr m ρ c 2).trans (GateValue.final (V0 m ρ) c)

/-- So the result array ends at x times the transpose of the gated weights. -/
theorem result_eq (c : Dev nD) :
    (dat1 (V1 m ρ) c).arrAt 2 cfg1.N
      = nac (m ((c : Thread nD τ).loc main_arg0)) (gate (m ((c : Thread nD τ).loc main_arg1)) (m ((c : Thread nD τ).loc main_arg2))) :=
  (AccValue.final (V1 m ρ) c).trans (congrArg₂ nac (entry_x m ρ c) (entry_g m ρ c))

/-- The reference's run: the result array at that function of the arguments, the arguments unchanged. -/
theorem run : θ_run defs (onTc (τ := τ) (main (F := Ideal))) ⟨m, fun _ => 0, ρ⟩ fun r => ∀ c : Dev nD,
      r.2.mem ((c : Thread nD τ).loc main_v1)
        = nac (m ((c : Thread nD τ).loc main_arg0)) (gate (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_eq m ρ c), (h c).2⟩) (RefRun.run_named m ρ)

end Cert.ReferenceIdeal.NacValue

end
-- ==== Proof.lean ====
/-
  Both programs compute y = x · gᵀ with g(n, k) = tanh(w(n, k)) * logistic(m(n, k)), for x of shape [8192, 1024] and
  w, m of shape [1024, 1024]: entry (r, n) of the result is the sum over k < 1024 of x(r, k) * g(n, k).

  The kernel keeps g in a scratch array, filled once per run of eight grid steps, and multiplies each block of 512 rows of
  x by gᵀ in one product over all 1024 values of k. The reference first writes g to an intermediate array in four
  512 x 512 blocks and then, for each 512 x 512 block of the result, starts from zero and adds the partial product over
  the low 512 values of k and then over the high 512. On the extended reals a change of float format is the identity, a
  product into a zero accumulator is the exact sum of products, and addition is commutative and associative with no
  exception at the infinities, so 0 + (low half) + (high half) is the whole sum: the two results are equal entry by
  entry, for all inputs (the precondition is not used). The idealization rewrote nothing in the kernel, and each
  program's frame is its generated frame.
-/
import proofs.«143479_g2000604538747211_pallasbulk_44_3_alg».proof.Defs
import proofs.«143479_g2000604538747211_pallasbulk_44_3_alg».proof.Proof.Gen.Kernel.Frame
import proofs.«143479_g2000604538747211_pallasbulk_44_3_alg».proof.Proof.Gen.KernelIdeal.Frame
import proofs.«143479_g2000604538747211_pallasbulk_44_3_alg».proof.Proof.Gen.ReferenceIdeal.Frame
import proofs.«143479_g2000604538747211_pallasbulk_44_3_alg».proof.Proof.Gen.Pre_finite_inputs
import proofs.«143479_g2000604538747211_pallasbulk_44_3_alg».proof.Proof.KernelValue
import proofs.«143479_g2000604538747211_pallasbulk_44_3_alg».proof.Proof.RefValue

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation of the kernel. -/
theorem preserves : Cert.preserves_Kernel_KernelIdeal := trivial

/-- From memories that agree on the arguments both programs end with the result array at the same function of the
    arguments. -/
theorem algebraic : Cert.algebraic_KernelIdeal_ReferenceIdeal := by
  intro m ρ m' ρ' _ hagree
  refine ⟨fun c => Cert.KernelIdeal.NacValue.result m c, Cert.KernelIdeal.NacValue.run m ρ, ?_⟩
  refine (θ_run Cert.ReferenceIdeal.defs _ _).mono (fun _ h c => ⟨(h c).1.trans ?_, (h c).2⟩)
    (Cert.ReferenceIdeal.NacValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
